-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S50000x128 : Shape := ⟨2, ![50000, 128]⟩
abbrev S64x128 : Shape := ⟨2, ![64, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 43
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S50000x128, .f32⟩
  | .hbm, ⟨25, _⟩ => ⟨S50000x128, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S256x128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000x64_S50000x128 : S100000x64.ShapeCasts S50000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S128x128_S128x128_S256x128_d0 : Shape.Concatenates [S128x128, S128x128] S256x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .i1⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.LayerSpec.lean ====
/-
  One graph-convolution layer on the extended reals, entry by entry, and the law that lets it be computed two
  node rows at a time.

  For node `n` and output feature `o`, with `x` the node features, `agg` the aggregated messages, `W1, W2` the two
  weight matrices (stored output-major: `W (o, c)`) and `b1, b2` the two biases, the layer's pre-activation is

      pre n o = (Σ_c (agg n c + x n c) · W1 o c + b1 o) + (Σ_c (agg n c · x n c) · W2 o c + b2 o)

  and the layer's output is `leaky (pre n o)`, `leaky s = s` where `s ≥ 0` and `slope · s` elsewhere.

  The packed form reads TWO consecutive node rows `2p, 2p+1` as one row of 128 lanes, lays the row's sums and
  products side by side (256 lanes), and multiplies by a 256 × 128 table that holds `W1ᵀ` twice on the diagonal of
  its upper half and `W2ᵀ` twice on the diagonal of its lower half, zeros elsewhere. Column `64·h + o` of the table
  therefore picks, from the 256 lanes, exactly node `2p + h`'s 64 sums against `W1 o ·` and its 64 products against
  `W2 o ·`; the other 128 lanes meet zeros. On the extended reals `y · 0 = 0` for every `y`, infinite or not, and
  addition is associative and commutative, so the packed entry is the layer's entry with no assumption on the values.
-/
import Idealize.ShloMosaic.Lib.ValueIdx
import Idealize.ShloMosaic.PureOps.Ideal.Laws
import proofs.«123226_j30262339568119_2_alg».proof.Proof.LibBlockSum

noncomputable section

namespace GcnLayer

open Idealize.ShloMosaic Idealize.ShloMosaic.ValueIdx Finset

abbrev Nodes : Shape := ⟨2, ![100000, 64]⟩
abbrev Weights : Shape := ⟨2, ![64, 64]⟩
abbrev Bias : Shape := ⟨1, ![64]⟩
abbrev Stack : Shape := ⟨2, ![256, 128]⟩
abbrev BiasRow : Shape := ⟨2, ![1, 128]⟩

/-- The leaky rectifier as both programs spell it: the value itself where it is at least the zero word's value,
    the slope word's value times it elsewhere. -/
def leaky (s : EReal) : EReal :=
  Scalar.select (FloatOps.cmpf (F := Ideal) (φ := .f32) .oge s (Ideal.ofBits .f32 0x00000000#32)) s
    (Ideal.ofBits .f32 0x3C23D70A#32 * s)

/-- The layer's pre-activation at node `n`, output feature `o`. -/
def preAct (x agg : Nodes.Idx → EReal) (W1 : Weights.Idx → EReal) (b1 : Bias.Idx → EReal)
    (W2 : Weights.Idx → EReal) (b2 : Bias.Idx → EReal) (n : Fin 100000) (o : Fin 64) : EReal :=
  (∑ c : Fin 64, (agg (ix2 n c) + x (ix2 n c)) * W1 (ix2 o c) + b1 (ix1 o))
    + (∑ c : Fin 64, (agg (ix2 n c) * x (ix2 n c)) * W2 (ix2 o c) + b2 (ix1 o))

/-- The layer's output array. -/
def layer (x agg : Nodes.Idx → EReal) (W1 : Weights.Idx → EReal) (b1 : Bias.Idx → EReal)
    (W2 : Weights.Idx → EReal) (b2 : Bias.Idx → EReal) : Nodes.Idx → EReal :=
  fun i => leaky (preAct x agg W1 b1 W2 b2 (i 0) (i 1))

/-- A packed row's 256 lanes: the 128 sums of its two operands, then their 128 products. -/
def packedRow (a b : Fin 128 → EReal) (K : Fin 256) : EReal :=
  if h : K.val < 128 then a ⟨K.val, h⟩ + b ⟨K.val, h⟩
  else a ⟨K.val - 128, by have := K.isLt; omega⟩ * b ⟨K.val - 128, by have := K.isLt; omega⟩

/-- One entry of the packed output: lane `q` of the row's 256 lanes against column `q` of the table, plus the
    packed bias, through the rectifier. -/
def packedEntry (a b : Fin 128 → EReal) (W : Stack.Idx → EReal) (bias : BiasRow.Idx → EReal) (q : Fin 128) : EReal :=
  leaky ((∑ K : Fin 256, packedRow a b K * W (ix2 K q)) + bias (ix2 0 q))

/-- A packed entry depends on its two row operands entry by entry, and on the table and the bias row. -/
theorem packedEntry_congr {a a' b b' : Fin 128 → EReal} {W W' : Stack.Idx → EReal} {bias bias' : BiasRow.Idx → EReal}
    (q : Fin 128) (ha : ∀ j, a j = a' j) (hb : ∀ j, b j = b' j) (hW : W = W') (hbias : bias = bias') :
    packedEntry a b W bias q = packedEntry a' b' W' bias' q := by
  obtain rfl : a = a' := funext ha
  obtain rfl : b = b' := funext hb
  subst hW hbias
  rfl

/-- A sum over 256 lanes taken in four consecutive blocks of 64. -/
theorem sum_four_blocks (f : Fin 256 → EReal) :
    ∑ K : Fin 256, f K
      = ∑ k : Fin 64, f ⟨k.val, by have := k.isLt; omega⟩ + ∑ k : Fin 64, f ⟨64 + k.val, by have := k.isLt; omega⟩
        + ∑ k : Fin 64, f ⟨128 + k.val, by have := k.isLt; omega⟩ + ∑ k : Fin 64, f ⟨192 + k.val, by have := k.isLt; omega⟩ := by
  let g : ℕ → EReal := fun n => if h : n < 256 then f ⟨n, h⟩ else 0
  have hg : ∀ (n : ℕ) (h : n < 256), g n = f ⟨n, h⟩ := fun n h => dif_pos h
  have e1 : ∑ K : Fin 256, f K = ∑ K : Fin 256, g K.val := sum_congr rfl fun K _ => (hg K.val K.isLt).symm
  rw [e1, ← BlockSum.sum_fin_blocks g 64 4 256 rfl]
  simp only [sum_range_succ, sum_range_zero, zero_add]
  refine congrArg₂ (· + ·) (congrArg₂ (· + ·) (congrArg₂ (· + ·) ?_ ?_) ?_) ?_
  · exact sum_congr rfl fun k _ => by
      have hk := k.isLt
      exact (hg (64 * 0 + k.val) (by omega)).trans (congrArg f (Fin.ext (by show 64 * 0 + k.val = k.val; omega)))
  · exact sum_congr rfl fun k _ => by
      have hk := k.isLt
      exact (hg (64 * 1 + k.val) (by omega)).trans (congrArg f (Fin.ext (by show 64 * 1 + k.val = 64 + k.val; omega)))
  · exact sum_congr rfl fun k _ => by
      have hk := k.isLt
      exact (hg (64 * 2 + k.val) (by omega)).trans (congrArg f (Fin.ext (by show 64 * 2 + k.val = 128 + k.val; omega)))
  · exact sum_congr rfl fun k _ => by
      have hk := k.isLt
      exact (hg (64 * 3 + k.val) (by omega)).trans (congrArg f (Fin.ext (by show 64 * 3 + k.val = 192 + k.val; omega)))

/-- The four sums regrouped: the two matrix products first and the two biases after, or each product with its
    own bias. -/
theorem regroup (A1 A2 c1 c2 : EReal) : (A1 + A2) + (c1 + c2) = (A1 + c1) + (A2 + c2) :=
  add_add_add_comm A1 A2 c1 c2

/-- THE LAW. A packed entry in column `64·h + o`, of a row whose operands hold node rows `2p` and `2p+1` of `agg`
    and `x` side by side, against a table holding `W1ᵀ` and `W2ᵀ` block-diagonally and a bias row holding `b1 + b2`
    twice, is the layer's entry at node `2p + h`, feature `o`. -/
theorem packedEntry_eq (x agg : Nodes.Idx → EReal) (W1 : Weights.Idx → EReal) (b1 : Bias.Idx → EReal)
    (W2 : Weights.Idx → EReal) (b2 : Bias.Idx → EReal)
    (a b : Fin 128 → EReal) (W : Stack.Idx → EReal) (bias : BiasRow.Idx → EReal)
    (p : Fin 50000) (h : Fin 2) (o : Fin 64)
    (ha : ∀ (h' : Fin 2) (k : Fin 64),
      a ⟨64 * h'.val + k.val, by have := h'.isLt; have := k.isLt; omega⟩
        = agg (ix2 ⟨2 * p.val + h'.val, by have := p.isLt; have := h'.isLt; omega⟩ k))
    (hb : ∀ (h' : Fin 2) (k : Fin 64),
      b ⟨64 * h'.val + k.val, by have := h'.isLt; have := k.isLt; omega⟩
        = x (ix2 ⟨2 * p.val + h'.val, by have := p.isLt; have := h'.isLt; omega⟩ k))
    (hW1 : ∀ (h' : Fin 2) (k : Fin 64),
      W (ix2 ⟨64 * h'.val + k.val, by have := h'.isLt; have := k.isLt; omega⟩
             ⟨64 * h.val + o.val, by have := h.isLt; have := o.isLt; omega⟩)
        = if h' = h then W1 (ix2 o k) else 0)
    (hW2 : ∀ (h' : Fin 2) (k : Fin 64),
      W (ix2 ⟨128 + 64 * h'.val + k.val, by have := h'.isLt; have := k.isLt; omega⟩
             ⟨64 * h.val + o.val, by have := h.isLt; have := o.isLt; omega⟩)
        = if h' = h then W2 (ix2 o k) else 0)
    (hbias : bias (ix2 0 ⟨64 * h.val + o.val, by have := h.isLt; have := o.isLt; omega⟩) = b1 (ix1 o) + b2 (ix1 o)) :
    packedEntry a b W bias ⟨64 * h.val + o.val, by have := h.isLt; have := o.isLt; omega⟩
      = leaky (preAct x agg W1 b1 W2 b2 ⟨2 * p.val + h.val, by have := p.isLt; have := h.isLt; omega⟩ o) := by
  unfold packedEntry preAct
  refine congrArg leaky ?_
  rw [hbias, ← regroup, sum_four_blocks]
  refine congrArg (· + (b1 (ix1 o) + b2 (ix1 o))) ?_
  -- the four blocks of 64 lanes: sums of row 2p, sums of row 2p+1, products of row 2p, products of row 2p+1
  have lane0 : ∀ k : Fin 64, packedRow a b ⟨k.val, by have := k.isLt; omega⟩
      = agg (ix2 ⟨2 * p.val + (0 : Fin 2).val, by have := p.isLt; show 2 * p.val + 0 < 100000; omega⟩ k)
        + x (ix2 ⟨2 * p.val + (0 : Fin 2).val, by have := p.isLt; show 2 * p.val + 0 < 100000; omega⟩ k) := fun k => by
    have hk := k.isLt
    unfold packedRow
    rw [dif_pos (show k.val < 128 by omega), ← ha 0 k, ← hb 0 k]
    exact congrArg₂ (· + ·) (congrArg a (Fin.ext (by show k.val = 64 * 0 + k.val; omega)))
      (congrArg b (Fin.ext (by show k.val = 64 * 0 + k.val; omega)))
  have lane1 : ∀ k : Fin 64, packedRow a b ⟨64 + k.val, by have := k.isLt; omega⟩
      = agg (ix2 ⟨2 * p.val + (1 : Fin 2).val, by have := p.isLt; show 2 * p.val + 1 < 100000; omega⟩ k)
        + x (ix2 ⟨2 * p.val + (1 : Fin 2).val, by have := p.isLt; show 2 * p.val + 1 < 100000; omega⟩ k) := fun k => by
    have hk := k.isLt
    unfold packedRow
    rw [dif_pos (show 64 + k.val < 128 by omega), ← ha 1 k, ← hb 1 k]
    exact congrArg₂ (· + ·) (congrArg a (Fin.ext (by show 64 + k.val = 64 * 1 + k.val; omega)))
      (congrArg b (Fin.ext (by show 64 + k.val = 64 * 1 + k.val; omega)))
  have lane2 : ∀ k : Fin 64, packedRow a b ⟨128 + k.val, by have := k.isLt; omega⟩
      = agg (ix2 ⟨2 * p.val + (0 : Fin 2).val, by have := p.isLt; show 2 * p.val + 0 < 100000; omega⟩ k)
        * x (ix2 ⟨2 * p.val + (0 : Fin 2).val, by have := p.isLt; show 2 * p.val + 0 < 100000; omega⟩ k) := fun k => by
    have hk := k.isLt
    unfold packedRow
    rw [dif_neg (show ¬ 128 + k.val < 128 by omega), ← ha 0 k, ← hb 0 k]
    exact congrArg₂ (· * ·) (congrArg a (Fin.ext (by show 128 + k.val - 128 = 64 * 0 + k.val; omega)))
      (congrArg b (Fin.ext (by show 128 + k.val - 128 = 64 * 0 + k.val; omega)))
  have lane3 : ∀ k : Fin 64, packedRow a b ⟨192 + k.val, by have := k.isLt; omega⟩
      = agg (ix2 ⟨2 * p.val + (1 : Fin 2).val, by have := p.isLt; show 2 * p.val + 1 < 100000; omega⟩ k)
        * x (ix2 ⟨2 * p.val + (1 : Fin 2).val, by have := p.isLt; show 2 * p.val + 1 < 100000; omega⟩ k) := fun k => by
    have hk := k.isLt
    unfold packedRow
    rw [dif_neg (show ¬ 192 + k.val < 128 by omega), ← ha 1 k, ← hb 1 k]
    exact congrArg₂ (· * ·) (congrArg a (Fin.ext (by show 192 + k.val - 128 = 64 * 1 + k.val; omega)))
      (congrArg b (Fin.ext (by show 192 + k.val - 128 = 64 * 1 + k.val; omega)))
  have col0 : ∀ k : Fin 64, W (ix2 ⟨k.val, by have := k.isLt; omega⟩ ⟨64 * h.val + o.val, by have := h.isLt; have := o.isLt; omega⟩)
      = if (0 : Fin 2) = h then W1 (ix2 o k) else 0 := fun k => by
    rw [← hW1 0 k]
    exact congrArg W (congrArg₂ ix2 (Fin.ext (by show k.val = 64 * 0 + k.val; omega)) rfl)
  have col1 : ∀ k : Fin 64, W (ix2 ⟨64 + k.val, by have := k.isLt; omega⟩ ⟨64 * h.val + o.val, by have := h.isLt; have := o.isLt; omega⟩)
      = if (1 : Fin 2) = h then W1 (ix2 o k) else 0 := fun k => by
    rw [← hW1 1 k]
    exact congrArg W (congrArg₂ ix2 (Fin.ext (by show 64 + k.val = 64 * 1 + k.val; omega)) rfl)
  have col2 : ∀ k : Fin 64, W (ix2 ⟨128 + k.val, by have := k.isLt; omega⟩ ⟨64 * h.val + o.val, by have := h.isLt; have := o.isLt; omega⟩)
      = if (0 : Fin 2) = h then W2 (ix2 o k) else 0 := fun k => by
    rw [← hW2 0 k]
    exact congrArg W (congrArg₂ ix2 (Fin.ext (by show 128 + k.val = 128 + 64 * 0 + k.val; omega)) rfl)
  have col3 : ∀ k : Fin 64, W (ix2 ⟨192 + k.val, by have := k.isLt; omega⟩ ⟨64 * h.val + o.val, by have := h.isLt; have := o.isLt; omega⟩)
      = if (1 : Fin 2) = h then W2 (ix2 o k) else 0 := fun k => by
    rw [← hW2 1 k]
    exact congrArg W (congrArg₂ ix2 (Fin.ext (by show 192 + k.val = 128 + 64 * 1 + k.val; omega)) rfl)
  simp only [lane0, lane1, lane2, lane3, col0, col1, col2, col3]
  -- which of the two node rows the column picks
  have h01 : h = 0 ∨ h = 1 := by
    obtain ⟨hv, hlt⟩ := h
    rcases (show hv = 0 ∨ hv = 1 by omega) with rfl | rfl
    · exact Or.inl rfl
    · exact Or.inr rfl
  rcases h01 with rfl | rfl
  · simp only [eq_self_iff_true, if_true, show ((1 : Fin 2) = 0) = False from eq_false (by decide), if_false,
      mul_zero, sum_const_zero, add_zero]
  · simp only [eq_self_iff_true, if_true, show ((0 : Fin 2) = 1) = False from eq_false (by decide), if_false,
      mul_zero, sum_const_zero, add_zero, zero_add]

end GcnLayer

end
-- ==== Proof.BodyEntry.lean ====
/-
  The kernel body's stored value, read at one entry.

  The body loads a block of packed aggregate rows `x0`, the matching block of packed feature rows `x1`, the whole
  weight table `x2` and the bias row `x3`; lays each row's 128 sums and 128 products side by side; multiplies the
  256-lane rows by the table into a zero accumulator; adds the bias row to every row; and applies the rectifier.
  A change of float format is the identity on the extended reals, a product into the zero accumulator is the plain
  sum over the 256 lanes, and a row broadcast over the block is read at its lane. So entry `(r, q)` of the stored
  block is `GcnLayer.packedEntry` of row `r` of `x0`, row `r` of `x1`, the table and the bias row, at lane `q`.
-/
import proofs.«123226_j30262339568119_2_alg».proof.Proof.Gen.KernelIdeal.Skeleton
import proofs.«123226_j30262339568119_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx GcnLayer

/-- Each row's 128 sums, then its 128 products. -/
def lanes256 (x0 x1 : Vec Ideal S5000x128 .f32) : FVec Ideal S5000x256 .f32 :=
  concatenate S5000x256 1
    [⟨S5000x128, addf (shapeCast S5000x128 x0 shapeCasts_S5000x128_S5000x128) (shapeCast S5000x128 x1 shapeCasts_S5000x128_S5000x128)⟩,
     ⟨S5000x128, mulf (shapeCast S5000x128 x0 shapeCasts_S5000x128_S5000x128) (shapeCast S5000x128 x1 shapeCasts_S5000x128_S5000x128)⟩]
    concatenates_S5000x128_S5000x128_S5000x256_d1

/-- The block before the rectifier: the 256-lane rows against the table, plus the bias row on every row. -/
def preBlock (x0 x1 : Vec Ideal S5000x128 .f32) (x2 : Vec Ideal S256x128 .f32) (x3 : Vec Ideal S1x128 .f32) :
    FVec Ideal S5000x128 .f32 :=
  addf
    (matmul dot_S5000x256_S256x128_S5000x128_1_0_0_1_n_n none (truncf .bf16 (lanes256 x0 x1) bitsLt_bf16_f32)
      (truncf .bf16 (shapeCast S256x128 x2 shapeCasts_S256x128_S256x128) bitsLt_bf16_f32)
      (constant (F := Ideal) S5000x128 .f32 0x00000000#32))
    (broadcastTo S5000x128 (shapeCast S1x128 x3 shapeCasts_S1x128_S1x128) broadcasts_S1x128_S5000x128)

/-- The stored value is the rectifier of that block, entry by entry. -/
theorem payload_eq (x0 x1 : Vec Ideal S5000x128 .f32) (x2 : Vec Ideal S256x128 .f32) (x3 : Vec Ideal S1x128 .f32) :
    k0_pay1 (F := Ideal) x0 x1 x2 x3 = fun i => leaky (preBlock x0 x1 x2 x3 i) := rfl

/-- Lane `K` of row `r`: a sum of the two operands' entries below 128, a product of them from 128 on. -/
theorem lanes256_apply (x0 x1 : Vec Ideal S5000x128 .f32) (r : Fin 5000) (K : Fin 256) :
    lanes256 x0 x1 (ix2 r K) = packedRow (fun j => x0 (ix2 r j)) (fun j => x1 (ix2 r j)) K := by
  have hK := K.isLt
  unfold lanes256 packedRow
  by_cases h : K.val < 128
  · rw [dif_pos h]
    refine (concatenate_pair_apply_left (t := S5000x256) 1 _ _ concatenates_S5000x128_S5000x128_S5000x256_d1 (ix2 r K) rfl (ix2 r ⟨K.val, h⟩) fun b => match b with
      | ⟨0, _⟩ => rfl
      | ⟨1, _⟩ => rfl).trans ?_
    rw [shapeCast_self, shapeCast_self]
    rfl
  · rw [dif_neg h]
    refine (concatenate_pair_apply_right (t := S5000x256) 1 _ _ concatenates_S5000x128_S5000x128_S5000x256_d1 (ix2 r K) rfl rfl (ix2 r ⟨K.val - 128, by omega⟩)
      (fun b hb => match b with
        | ⟨0, _⟩ => rfl
        | ⟨1, _⟩ => absurd rfl hb)
      (by show K.val - 128 + 128 = K.val; omega)).trans ?_
    rw [shapeCast_self, shapeCast_self]
    rfl

theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem lhs_lane (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k

theorem rhs_lane (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k

theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product into the zero accumulator, at entry `(r, q)`: the sum over the 256 lanes of row `r` of the left
    operand against column `q` of the right. -/
theorem matmul_entry (L : FVec Ideal S5000x256 .bf16) (R : FVec Ideal S256x128 .bf16) (r : Fin 5000) (q : Fin 128) :
    matmul dot_S5000x256_S256x128_S5000x128_1_0_0_1_n_n none L R (constant (F := Ideal) S5000x128 .f32 0x00000000#32) (ix2 r q)
      = ∑ K : Fin 256, L (ix2 r K) * R (ix2 K q) := by
  simp only [matmul]
  rw [Ideal.matmul_constant_zero_apply,
    ← Equiv.sum_comp (ValueIdx.contrEquiv1 dot_S5000x256_S256x128_S5000x128_1_0_0_1_n_n 256 rfl rfl).symm]
  refine Finset.sum_congr rfl fun K _ => ?_
  have hk := ValueIdx.contrEquiv1_symm_val dot_S5000x256_S256x128_S5000x128_1_0_0_1_n_n 256 rfl rfl K
  have el : dot_S5000x256_S256x128_S5000x128_1_0_0_1_n_n.lhsIdx (ix2 r q)
      ((ValueIdx.contrEquiv1 dot_S5000x256_S256x128_S5000x128_1_0_0_1_n_n 256 rfl rfl).symm K) = ix2 r K :=
    funext fun a => Fin.ext (by
      match a with
      | ⟨0, _⟩ => exact lhs_row _ _
      | ⟨1, _⟩ => exact (lhs_lane _ _).trans hk)
  have er : dot_S5000x256_S256x128_S5000x128_1_0_0_1_n_n.rhsIdx (ix2 r q)
      ((ValueIdx.contrEquiv1 dot_S5000x256_S256x128_S5000x128_1_0_0_1_n_n 256 rfl rfl).symm K) = ix2 K q :=
    funext fun a => Fin.ext (by
      match a with
      | ⟨0, _⟩ => exact (rhs_lane _ _).trans hk
      | ⟨1, _⟩ => exact rhs_col _ _)
  rw [el, er]

/-- The block before the rectifier, at entry `(r, q)`. -/
theorem preBlock_apply (x0 x1 : Vec Ideal S5000x128 .f32) (x2 : Vec Ideal S256x128 .f32) (x3 : Vec Ideal S1x128 .f32)
    (r : Fin 5000) (q : Fin 128) :
    preBlock x0 x1 x2 x3 (ix2 r q)
      = (∑ K : Fin 256, packedRow (fun j => x0 (ix2 r j)) (fun j => x1 (ix2 r j)) K * x2 (ix2 K q)) + x3 (ix2 0 q) := by
  unfold preBlock
  refine (addf_apply _ _ _).trans ?_
  refine congrArg₂ (· + ·) ?_ ?_
  · refine (matmul_entry _ _ r q).trans ?_
    refine Finset.sum_congr rfl fun K _ => ?_
    refine congrArg₂ (· * ·) ?_ ?_
    · exact lanes256_apply x0 x1 r K
    · show shapeCast S256x128 x2 shapeCasts_S256x128_S256x128 (ix2 K q) = x2 (ix2 K q)
      rw [shapeCast_self]
  · refine (ValueIdx.broadcastTo_1b_ab_apply _ broadcasts_S1x128_S5000x128 r q).trans ?_
    rw [shapeCast_self]

/-- THE STORED BLOCK at entry `(r, q)`: the packed entry of row `r` of the two row operands, the table and the
    bias row, at lane `q`. -/
theorem payload_apply (x0 x1 : Vec Ideal S5000x128 .f32) (x2 : Vec Ideal S256x128 .f32) (x3 : Vec Ideal S1x128 .f32)
    (r : Fin 5000) (q : Fin 128) :
    k0_pay1 (F := Ideal) x0 x1 x2 x3 (ix2 r q)
      = packedEntry (fun j => x0 (ix2 r j)) (fun j => x1 (ix2 r j)) x2 x3 q := by
  rw [payload_eq]
  exact congrArg leaky (preBlock_apply x0 x1 x2 x3 r q)

end Cert.KernelIdeal.Body

end
-- ==== Proof.PackedArray.lean ====
/-
  From what each grid point writes back to the whole packed output array.

  The grid has ten points; point `t` stages rows `5000·t … 5000·t + 4999` of the packed aggregate and of the packed
  features, the whole weight table and the whole bias row, and writes back the same rows of the output. Each
  written entry depends only on its own row of the two row operands, so what point `t` writes is the block of ONE
  whole-array function, `packedOut`: entry `(p, q)` is the packed entry of row `p` of the two arrays. The ten
  blocks tile the 50000 rows (row `p` is in block `p / 5000`), so after the run the output array is `packedOut`.

  Every fact about a window's block is stated for an ARBITRARY array under the window and only then read at the
  array the region finds there, so that the contents of that array are never opened.
-/
import proofs.«123226_j30262339568119_2_alg».proof.Proof.Gen.KernelIdeal.Frame
import proofs.«123226_j30262339568119_2_alg».proof.Proof.BodyEntry
import proofs.«123226_j30262339568119_2_alg».proof.Proof.LayerSpec
import Idealize.ShloMosaic.Lib.Pipeline.Value
import Idealize.ShloMosaic.Lib.ValueIdx

noncomputable section

namespace Cert.KernelIdeal.Packed

open Cert.KernelIdeal Cert.KernelIdeal.Gen Idealize.ShloMosaic Idealize.ShloMosaic.TcCoe Idealize.SL.Sem
  Idealize.ShloMosaic.ValueIdx GcnLayer
open Idealize.ShloMosaic.Pipeline (Dat)

/-- The packed output as one function of the four operand arrays: entry `(p, q)` is the packed entry of row `p`
    of the two row arrays against the table and the bias row, at lane `q`. -/
def packedOut (A B : S50000x128.Idx → EReal) (W : S256x128.Idx → EReal) (bias : S1x128.Idx → EReal) :
    S50000x128.Idx → EReal :=
  fun i => packedEntry (fun j => A (ix2 (n0 := 50000) (n1 := 128) (i 0) j))
    (fun j => B (ix2 (n0 := 50000) (n1 := 128) (i 0) j)) W bias (i 1)

theorem packedOut_apply (A B : S50000x128.Idx → EReal) (W : S256x128.Idx → EReal) (bias : S1x128.Idx → EReal)
    (p : Fin 50000) (q : Fin 128) :
    packedOut A B W bias (ix2 p q) = packedEntry (fun j => A (ix2 p j)) (fun j => B (ix2 p j)) W bias q := rfl

theorem zero_offsets : (![0, 0] : Fin 2 → Nat) = fun _ => 0 := funext fun a => by fin_cases a <;> rfl

/-- The printed index maps, decided over the ten points: the row windows and the output window sit at block row
    `t`, column block 0; the table and the bias row are always their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem points : cfg0.N = 10 := N_0

/-! ## Each window's block of an arbitrary array -/

/-- Row `r` of window 0's block at point `t` is row `5000·t + r` of the array under it. -/
theorem rows_win0 (A : S50000x128.Idx → EReal) (t : Fin cfg0.N) (r : Fin 5000) (j : Fin 128) (p : Fin 50000)
    (hp : p.val = t.val * 5000 + r.val) :
    ((cfg0.win 0).blk t).view.read (Elt Ideal) A (ix2 r j) = A (ix2 p j) := by
  obtain ⟨e0, e1, -⟩ := idx_facts t
  show A (((cfg0.win 0).blk t).view.emb (ix2 r j)) = A (ix2 p j)
  have h : ((cfg0.win 0).blk t).view.emb (ix2 r j) = ix2 p j := by
    funext a; apply Fin.ext
    match a with
    | ⟨0, _⟩ => show win0_0.index t (0 : Fin 2) * 5000 + 1 * r.val = p.val; omega
    | ⟨1, _⟩ => show win0_0.index t (1 : Fin 2) * 128 + 1 * j.val = j.val; omega
  rw [h]

/-- Row `r` of window 1's block at point `t` is row `5000·t + r` of the array under it. -/
theorem rows_win1 (A : S50000x128.Idx → EReal) (t : Fin cfg0.N) (r : Fin 5000) (j : Fin 128) (p : Fin 50000)
    (hp : p.val = t.val * 5000 + r.val) :
    ((cfg0.win 1).blk t).view.read (Elt Ideal) A (ix2 r j) = A (ix2 p j) := by
  obtain ⟨-, -, e0, e1, -⟩ := idx_facts t
  show A (((cfg0.win 1).blk t).view.emb (ix2 r j)) = A (ix2 p j)
  have h : ((cfg0.win 1).blk t).view.emb (ix2 r j) = ix2 p j := by
    funext a; apply Fin.ext
    match a with
    | ⟨0, _⟩ => show win0_1.index t (0 : Fin 2) * 5000 + 1 * r.val = p.val; omega
    | ⟨1, _⟩ => show win0_1.index t (1 : Fin 2) * 128 + 1 * j.val = j.val; omega
  rw [h]

/-- Window 2's one block is the whole array under it. -/
theorem whole_win2 (W : S256x128.Idx → EReal) (t : Fin cfg0.N) :
    ((cfg0.win 2).blk t).view.read (Elt Ideal) W = W := by
  obtain ⟨-, -, -, -, e0, e1, -⟩ := idx_facts t
  funext y
  show W (((cfg0.win 2).blk t).view.emb y) = W y
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  rw [h]

/-- Window 3's one block is the whole array under it. -/
theorem whole_win3 (b : S1x128.Idx → EReal) (t : Fin cfg0.N) :
    ((cfg0.win 3).blk t).view.read (Elt Ideal) b = b := by
  obtain ⟨-, -, -, -, -, -, e0, e1, -⟩ := idx_facts t
  funext y
  show b (((cfg0.win 3).blk t).view.emb y) = b y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [h]

/-- A block `P` whose entry `(r, q)` is entry `(5000·t + r, q)` of an array `G` is what window 4 reads of `G` at
    point `t`. -/
theorem block_of_win4 (t : Fin cfg0.N) (P : Vec Ideal S5000x128 .f32) (G : S50000x128.Idx → EReal)
    (h : ∀ (r : Fin 5000) (q : Fin 128) (p : Fin 50000), p.val = t.val * 5000 + r.val → P (ix2 r q) = G (ix2 p q)) :
    (cfg0.win 4).cut (grid0.coords t) P = ((cfg0.win 4).blk t).view.read (Elt Ideal) G := by
  obtain ⟨-, -, -, -, -, -, -, -, e0, e1⟩ := idx_facts t
  have ht : t.val < 10 := lt_of_lt_of_eq t.isLt points
  funext j
  obtain ⟨r, q, rfl⟩ : ∃ (r : Fin 5000) (q : Fin 128), j = ix2 r q := ⟨j 0, j 1, eq_ix2 j⟩
  have hr := r.isLt
  show P (ix2 r q) = G (((cfg0.win 4).blk t).view.emb (ix2 r q))
  have hemb : ((cfg0.win 4).blk t).view.emb (ix2 r q) = ix2 (⟨t.val * 5000 + r.val, by omega⟩ : Fin 50000) q := by
    funext a; apply Fin.ext
    match a with
    | ⟨0, _⟩ => show win0_4.index t (0 : Fin 2) * 5000 + 1 * r.val = t.val * 5000 + r.val; omega
    | ⟨1, _⟩ => show win0_4.index t (1 : Fin 2) * 128 + 1 * q.val = q.val; omega
  rw [hemb]
  exact h r q _ rfl

/-! ## What a point writes back -/

variable (m : (ℓ : Loc nD τ sig) → Buf (Elt Ideal) ℓ)

/-- WHAT POINT `t` WRITES BACK is block `t` of `packedOut` of the four arrays as the region finds them. -/
theorem flushed_eq (c : Dev nD) (t : Fin cfg0.N) :
    (dats m 0 c).flushed 4 t = ((cfg0.win 4).blk t).view.read (Elt Ideal)
      (packedOut (V m c (Pipeline.arrRef spec0 0)) (V m c (Pipeline.arrRef spec0 1))
        (V m c (Pipeline.arrRef spec0 2)) (V m c (Pipeline.arrRef spec0 3))) := by
  show (cfg0.win 4).cut (grid0.coords t) ((dats m 0 c).after 4 t) = _
  rw [after0_4]
  unfold out0_4
  rw [View.canon_unit_zero zero_offsets]
  simp only [View.ld_unit_zero (S := S5000x128) zero_offsets, View.ld_unit_zero (S := S256x128) zero_offsets,
    View.ld_unit_zero (S := S1x128) zero_offsets]
  refine block_of_win4 t _ _ fun r q p hp => ?_
  refine (Body.payload_apply (iblk m c 0 t) (iblk m c 1 t) (iblk m c 2 t) (iblk m c 3 t) r q).trans ?_
  rw [packedOut_apply]
  unfold iblk
  exact packedEntry_congr q (fun j => rows_win0 _ t r j p hp) (fun j => rows_win1 _ t r j p hp)
    (whole_win2 _ t) (whole_win3 _ t)

/-! ## The cover, and the array after the run -/

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v25).slice (win0_4.rect t)).set ↔ _
  rw [View.set_slice_whole, Rect.mem_set_unit]
  exact Iff.rfl

/-- Every row of the array is in some point's block: row `p` in block `p / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 5000 < cfg0.N := lt_of_lt_of_eq (by omega : (i 0).val / 5000 < 10) points.symm
  obtain ⟨-, -, -, -, -, -, -, -, e0, e1⟩ := idx_facts ⟨(i 0).val / 5000, hlt⟩
  have e0' : win0_4.index ⟨(i 0).val / 5000, hlt⟩ (0 : Fin 2) = (i 0).val / 5000 := e0
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    omega

/-- THE OUTPUT ARRAY after the run is `packedOut` of the four operand arrays as the region finds them. -/
theorem final (c : Dev nD) :
    (dats m 0 c).arrAt 4 cfg0.N
      = packedOut (V m c (Pipeline.arrRef spec0 0)) (V m c (Pipeline.arrRef spec0 1))
          (V m c (Pipeline.arrRef spec0 2)) (V m c (Pipeline.arrRef spec0 3)) :=
  (dats m 0 c).arrAt_eq_of_cover 4 _ (fun t _ => flushed_eq m c t) cover

end Cert.KernelIdeal.Packed

end
-- ==== Proof.OperandDefs.lean ====
/-
  The four arrays the packed kernel is launched on, as functions of the program's arguments.

  * `aggregate`: the messages `val e · x (col e)` (a negative column counted from the end) summed into their
    destination rows — the scatter-add of the gathered, scaled feature rows into an all-zero array.
  * `packRows`: a node array [100000, 64] re-read as [50000, 128]: two consecutive node rows per packed row.
  * `blockDiag T`: the 128 × 128 table with `T` in its two diagonal 64 × 64 blocks and zeros in the other two.
  * `weightStack W1 W2`: `blockDiag W1ᵀ` on top of `blockDiag W2ᵀ`, a 256 × 128 table.
  * `biasRow b1 b2`: `(b1, b1) + (b2, b2)` as one row of 128 lanes.
-/
import proofs.«123226_j30262339568119_2_alg».proof.Proof.Gen.KernelIdeal
import Idealize.ShloMosaic.PureOps.Ideal

noncomputable section

namespace Cert.KernelIdeal.Operands

open Cert.KernelIdeal Cert.KernelIdeal.Facts₀ Idealize.ShloMosaic

/-- The aggregated messages: for every edge, the source node's feature row scaled by the edge's value, added
    into the destination node's row of an array that starts at zero. -/
def aggregate (x : FVec Ideal S100000x64 .f32) (row col : IVec S1600000 32) (val : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (broadcastInDim S1600000x64 ![0, 1] bcast_S1600000x1_S1600000x64_0_1
        (broadcastInDim S1600000x1 ![0] bcast_S1600000_S1600000x1_0 val))
      (Host.gather gather_S100000x64_S1600000x1_S1600000x64_1_0_n_n_0_1_164 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- Two consecutive node rows per packed row. -/
def packRows (y : FVec Ideal S100000x64 .f32) : FVec Ideal S50000x128 .f32 :=
  shapeCast S50000x128 y shapeCasts_S100000x64_S50000x128

/-- The all-zero 64 × 64 block. -/
def zeroBlock : FVec Ideal S64x64 .f32 :=
  broadcastInDim S64x64 ![] bcast_S_S64x64 (constant (F := Ideal) S_ .f32 0x00000000#32)

/-- `T` twice on the diagonal, zeros off it. -/
def blockDiag (T : FVec Ideal S64x64 .f32) : FVec Ideal S128x128 .f32 :=
  concatenate S128x128 0
    [⟨S64x128, concatenate S64x128 1 [⟨S64x64, T⟩, ⟨S64x64, zeroBlock⟩] concatenates_S64x64_S64x64_S64x128_d1⟩,
     ⟨S64x128, concatenate S64x128 1 [⟨S64x64, zeroBlock⟩, ⟨S64x64, T⟩] concatenates_S64x64_S64x64_S64x128_d1⟩]
    concatenates_S64x128_S64x128_S128x128_d0

/-- The two transposed weight matrices, each block-diagonal, one above the other. -/
def weightStack (W1 W2 : FVec Ideal S64x64 .f32) : FVec Ideal S256x128 .f32 :=
  concatenate S256x128 0
    [⟨S128x128, blockDiag (transpose S64x64 [1, 0] W1 transposes_S64x64_S64x64_1_0)⟩,
     ⟨S128x128, blockDiag (transpose S64x64 [1, 0] W2 transposes_S64x64_S64x64_1_0)⟩]
    concatenates_S128x128_S128x128_S256x128_d0

/-- The two biases, each repeated for the two node rows of a packed row, added, as a row. -/
def biasRow (b1 b2 : FVec Ideal S64 .f32) : FVec Ideal S1x128 .f32 :=
  shapeCast S1x128
    (addf (concatenate S128 0 [⟨S64, b1⟩, ⟨S64, b1⟩] concatenates_S64_S64_S128_d0)
      (concatenate S128 0 [⟨S64, b2⟩, ⟨S64, b2⟩] concatenates_S64_S64_S128_d0))
    shapeCasts_S128_S1x128

end Cert.KernelIdeal.Operands

end
-- ==== Proof.RegionEntry.lean ====
/-
  What the packed kernel's four operand arrays hold when the region is entered: the host operations before the
  launch, composed. Window 0 finds the aggregate, packed two node rows per row; window 1 the features, packed the
  same way; window 2 the stacked block-diagonal weight table; window 3 the summed, doubled bias row.
-/
import proofs.«123226_j30262339568119_2_alg».proof.Proof.Gen.KernelIdeal.Frame
import proofs.«123226_j30262339568119_2_alg».proof.Proof.OperandDefs
import Idealize.ShloMosaic.Lib.StableHlo.Run

noncomputable section

namespace Cert.KernelIdeal.Entry

open Cert.KernelIdeal Cert.KernelIdeal.Gen Cert.KernelIdeal.Operands Idealize.ShloMosaic Idealize.ShloMosaic.TcCoe
  Idealize.SL.Sem Idealize.ShloMosaic.StableHlo

variable (m : (ℓ : Loc nD τ sig) → Buf (Elt Ideal) ℓ)

set_option maxHeartbeats 2000000 in
/-- Window 1's array: the features, two node rows per packed row. -/
theorem entry_features (c : Dev nD) :
    (V m c main_v14 : S50000x128.Idx → EReal) = packRows (m ((c : Thread nD τ).loc main_arg0)) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp <;> rfl

set_option maxHeartbeats 2000000 in
/-- Window 0's array: the aggregated messages, two node rows per packed row. -/
theorem entry_aggregate (c : Dev nD) :
    (V m c main_v13 : S50000x128.Idx → EReal)
      = packRows (aggregate (m ((c : Thread nD τ).loc main_arg0)) (m ((c : Thread nD τ).loc main_arg1))
          (m ((c : Thread nD τ).loc main_arg2)) (m ((c : Thread nD τ).loc main_arg3))) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp <;> rfl

set_option maxHeartbeats 2000000 in
/-- Window 2's array: the stacked block-diagonal weight table. -/
theorem entry_weights (c : Dev nD) :
    (V m c main_v20 : S256x128.Idx → EReal)
      = weightStack (m ((c : Thread nD τ).loc main_arg4)) (m ((c : Thread nD τ).loc main_arg6)) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp <;> rfl

set_option maxHeartbeats 2000000 in
/-- Window 3's array: the bias row. -/
theorem entry_bias (c : Dev nD) :
    (V m c main_v24 : S1x128.Idx → EReal)
      = biasRow (m ((c : Thread nD τ).loc main_arg5)) (m ((c : Thread nD τ).loc main_arg7)) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp <;> rfl

/-! ## The same arrays, named as the kernel's windows name them -/

/-- The array under window 0. -/
theorem win_aggregate (c : Dev nD) :
    (V m c (Pipeline.arrRef spec0 0) : S50000x128.Idx → EReal)
      = packRows (aggregate (m ((c : Thread nD τ).loc main_arg0)) (m ((c : Thread nD τ).loc main_arg1))
          (m ((c : Thread nD τ).loc main_arg2)) (m ((c : Thread nD τ).loc main_arg3))) :=
  entry_aggregate m c

/-- The array under window 1. -/
theorem win_features (c : Dev nD) :
    (V m c (Pipeline.arrRef spec0 1) : S50000x128.Idx → EReal) = packRows (m ((c : Thread nD τ).loc main_arg0)) :=
  entry_features m c

/-- The array under window 2. -/
theorem win_weights (c : Dev nD) :
    (V m c (Pipeline.arrRef spec0 2) : S256x128.Idx → EReal)
      = weightStack (m ((c : Thread nD τ).loc main_arg4)) (m ((c : Thread nD τ).loc main_arg6)) :=
  entry_weights m c

/-- The array under window 3. -/
theorem win_bias (c : Dev nD) :
    (V m c (Pipeline.arrRef spec0 3) : S1x128.Idx → EReal)
      = biasRow (m ((c : Thread nD τ).loc main_arg5)) (m ((c : Thread nD τ).loc main_arg7)) :=
  entry_bias m c

end Cert.KernelIdeal.Entry

end
-- ==== Proof.OperandReads.lean ====
/-
  The packed kernel's operand arrays read at an index.

  * A node array packed two rows per row: lane `64·h + k` of packed row `p` is feature `k` of node `2p + h`
    (both sit at position `128·p + 64·h + k` of the row-major order).
  * The block-diagonal table: entry `(64·h' + k, 64·h + o)` is `T (k, o)` on the diagonal blocks (`h' = h`) and
    zero off them; with `T = Wᵀ` that is `W (o, k)`.
  * The stacked table: rows `0 … 127` are the first weight's table, rows `128 … 255` the second's.
  * The bias row: lane `64·h + o` is `b1 o + b2 o`, for either half `h`.
-/
import proofs.«123226_j30262339568119_2_alg».proof.Proof.OperandDefs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Operands

open Cert.KernelIdeal Cert.KernelIdeal.Facts₀ Idealize.ShloMosaic Idealize.ShloMosaic.ValueIdx

/-- One of two. -/
theorem fin2_cases (h : Fin 2) : h = 0 ∨ h = 1 := by
  obtain ⟨hv, hlt⟩ := h
  rcases (show hv = 0 ∨ hv = 1 by omega) with rfl | rfl
  · exact Or.inl rfl
  · exact Or.inr rfl

/-! ## Two node rows per packed row -/

/-- Lane `64·h + k` of packed row `p` is feature `k` of node `2p + h`. -/
theorem packRows_apply (y : FVec Ideal S100000x64 .f32) (p : Fin 50000) (h : Fin 2) (k : Fin 64) (j : Fin 128)
    (n : Fin 100000) (hj : j.val = 64 * h.val + k.val) (hn : n.val = 2 * p.val + h.val) :
    packRows y (ix2 p j) = y (ix2 n k) := by
  unfold packRows
  refine shapeCast_apply y _ _ _ ?_
  rw [Shape.rowMajor_val_two, Shape.rowMajor_val_two]
  show n.val * 64 + k.val = p.val * 128 + j.val
  omega

/-! ## Two-piece concatenations at the shapes the table is built from -/

/-- Lanes `0 … 63` of two 64 × 64 blocks side by side are the first block's. -/
theorem lanes_left (A B : FVec Ideal S64x64 .f32) (k o : Fin 64) (q : Fin 128) (hq : q.val = o.val) :
    concatenate S64x128 1 [⟨S64x64, A⟩, ⟨S64x64, B⟩] concatenates_S64x64_S64x64_S64x128_d1 (ix2 k q) = A (ix2 k o) :=
  concatenate_pair_apply_left (t := S64x128) 1 A B concatenates_S64x64_S64x64_S64x128_d1 (ix2 k q) rfl (ix2 k o) fun b => match b with
    | ⟨0, _⟩ => rfl
    | ⟨1, _⟩ => hq.symm

/-- Lanes `64 … 127` are the second block's. -/
theorem lanes_right (A B : FVec Ideal S64x64 .f32) (k o : Fin 64) (q : Fin 128) (hq : q.val = 64 + o.val) :
    concatenate S64x128 1 [⟨S64x64, A⟩, ⟨S64x64, B⟩] concatenates_S64x64_S64x64_S64x128_d1 (ix2 k q) = B (ix2 k o) :=
  concatenate_pair_apply_right (t := S64x128) 1 A B concatenates_S64x64_S64x64_S64x128_d1 (ix2 k q) rfl rfl (ix2 k o)
    (fun b hb => match b with
      | ⟨0, _⟩ => rfl
      | ⟨1, _⟩ => absurd rfl hb)
    (by show o.val + 64 = q.val; omega)

/-- Rows `0 … 63` of two 64 × 128 pieces stacked are the first piece's. -/
theorem rows64_left (A B : FVec Ideal S64x128 .f32) (k : Fin 64) (r q : Fin 128) (hr : r.val = k.val) :
    concatenate S128x128 0 [⟨S64x128, A⟩, ⟨S64x128, B⟩] concatenates_S64x128_S64x128_S128x128_d0 (ix2 r q) = A (ix2 k q) :=
  concatenate_pair_apply_left (t := S128x128) 0 A B concatenates_S64x128_S64x128_S128x128_d0 (ix2 r q) rfl (ix2 k q) fun b => match b with
    | ⟨0, _⟩ => hr.symm
    | ⟨1, _⟩ => rfl

/-- Rows `64 … 127` are the second piece's. -/
theorem rows64_right (A B : FVec Ideal S64x128 .f32) (k : Fin 64) (r q : Fin 128) (hr : r.val = 64 + k.val) :
    concatenate S128x128 0 [⟨S64x128, A⟩, ⟨S64x128, B⟩] concatenates_S64x128_S64x128_S128x128_d0 (ix2 r q) = B (ix2 k q) :=
  concatenate_pair_apply_right (t := S128x128) 0 A B concatenates_S64x128_S64x128_S128x128_d0 (ix2 r q) rfl rfl (ix2 k q)
    (fun b hb => match b with
      | ⟨0, _⟩ => absurd rfl hb
      | ⟨1, _⟩ => rfl)
    (by show k.val + 64 = r.val; omega)

/-- Rows `0 … 127` of two 128 × 128 tables stacked are the first table's. -/
theorem rows128_left (A B : FVec Ideal S128x128 .f32) (j q : Fin 128) (K : Fin 256) (hK : K.val = j.val) :
    concatenate S256x128 0 [⟨S128x128, A⟩, ⟨S128x128, B⟩] concatenates_S128x128_S128x128_S256x128_d0 (ix2 K q) = A (ix2 j q) :=
  concatenate_pair_apply_left (t := S256x128) 0 A B concatenates_S128x128_S128x128_S256x128_d0 (ix2 K q) rfl (ix2 j q) fun b => match b with
    | ⟨0, _⟩ => hK.symm
    | ⟨1, _⟩ => rfl

/-- Rows `128 … 255` are the second table's. -/
theorem rows128_right (A B : FVec Ideal S128x128 .f32) (j q : Fin 128) (K : Fin 256) (hK : K.val = 128 + j.val) :
    concatenate S256x128 0 [⟨S128x128, A⟩, ⟨S128x128, B⟩] concatenates_S128x128_S128x128_S256x128_d0 (ix2 K q) = B (ix2 j q) :=
  concatenate_pair_apply_right (t := S256x128) 0 A B concatenates_S128x128_S128x128_S256x128_d0 (ix2 K q) rfl rfl (ix2 j q)
    (fun b hb => match b with
      | ⟨0, _⟩ => absurd rfl hb
      | ⟨1, _⟩ => rfl)
    (by show j.val + 128 = K.val; omega)

/-- The first 64 entries of a vector written twice are the vector's. -/
theorem twice_left (a b : FVec Ideal S64 .f32) (o : Fin 64) (q : Fin 128) (hq : q.val = o.val) :
    concatenate S128 0 [⟨S64, a⟩, ⟨S64, b⟩] concatenates_S64_S64_S128_d0 (ix1 q) = a (ix1 o) :=
  concatenate_pair_apply_left (t := S128) 0 a b concatenates_S64_S64_S128_d0 (ix1 q) rfl (ix1 o) fun c => match c with
    | ⟨0, _⟩ => hq.symm

/-- So are the last 64. -/
theorem twice_right (a b : FVec Ideal S64 .f32) (o : Fin 64) (q : Fin 128) (hq : q.val = 64 + o.val) :
    concatenate S128 0 [⟨S64, a⟩, ⟨S64, b⟩] concatenates_S64_S64_S128_d0 (ix1 q) = b (ix1 o) :=
  concatenate_pair_apply_right (t := S128) 0 a b concatenates_S64_S64_S128_d0 (ix1 q) rfl rfl (ix1 o)
    (fun c hc => match c with
      | ⟨0, _⟩ => absurd rfl hc)
    (by show o.val + 64 = q.val; omega)

/-! ## The table -/

/-- The zero block is zero. -/
theorem zeroBlock_apply (i : S64x64.Idx) : zeroBlock i = 0 := by
  unfold zeroBlock
  refine (broadcastInDim_apply _ bcast_S_S64x64 _ i ix0 fun a => a.elim0).trans ?_
  exact Ideal.ofBits_zero_f32

/-- `T` on the diagonal blocks, zero off them. -/
theorem blockDiag_apply (T : FVec Ideal S64x64 .f32) (h' h : Fin 2) (k o : Fin 64) (r q : Fin 128)
    (hr : r.val = 64 * h'.val + k.val) (hq : q.val = 64 * h.val + o.val) :
    blockDiag T (ix2 r q) = if h' = h then T (ix2 k o) else 0 := by
  unfold blockDiag
  rcases fin2_cases h' with rfl | rfl <;> rcases fin2_cases h with rfl | rfl
  · rw [if_pos rfl]
    refine (rows64_left _ _ k r q (by rw [hr]; show 64 * 0 + k.val = k.val; omega)).trans ?_
    exact lanes_left _ _ k o q (by rw [hq]; show 64 * 0 + o.val = o.val; omega)
  · rw [if_neg (by decide)]
    refine (rows64_left _ _ k r q (by rw [hr]; show 64 * 0 + k.val = k.val; omega)).trans ?_
    refine (lanes_right _ _ k o q (by rw [hq]; show 64 * 1 + o.val = 64 + o.val; omega)).trans ?_
    exact zeroBlock_apply _
  · rw [if_neg (by decide)]
    refine (rows64_right _ _ k r q (by rw [hr]; show 64 * 1 + k.val = 64 + k.val; omega)).trans ?_
    refine (lanes_left _ _ k o q (by rw [hq]; show 64 * 0 + o.val = o.val; omega)).trans ?_
    exact zeroBlock_apply _
  · rw [if_pos rfl]
    refine (rows64_right _ _ k r q (by rw [hr]; show 64 * 1 + k.val = 64 + k.val; omega)).trans ?_
    exact lanes_right _ _ k o q (by rw [hq]; show 64 * 1 + o.val = 64 + o.val; omega)

/-- The upper half of the stacked table: the first weight matrix, transposed, on the diagonal blocks. -/
theorem weightStack_upper (W1 W2 : FVec Ideal S64x64 .f32) (h' h : Fin 2) (k o : Fin 64) (K : Fin 256) (q : Fin 128)
    (hK : K.val = 64 * h'.val + k.val) (hq : q.val = 64 * h.val + o.val) :
    weightStack W1 W2 (ix2 K q) = if h' = h then W1 (ix2 o k) else 0 := by
  unfold weightStack
  have hk := k.isLt
  have hh := h'.isLt
  refine (rows128_left _ _ ⟨64 * h'.val + k.val, by omega⟩ q K hK).trans ?_
  rw [blockDiag_apply _ h' h k o ⟨64 * h'.val + k.val, by omega⟩ q rfl hq]
  exact if_congr Iff.rfl (ValueIdx.transpose_ix2_apply W1 transposes_S64x64_S64x64_1_0 k o) rfl

/-- The lower half: the second weight matrix, transposed, on the diagonal blocks. -/
theorem weightStack_lower (W1 W2 : FVec Ideal S64x64 .f32) (h' h : Fin 2) (k o : Fin 64) (K : Fin 256) (q : Fin 128)
    (hK : K.val = 128 + 64 * h'.val + k.val) (hq : q.val = 64 * h.val + o.val) :
    weightStack W1 W2 (ix2 K q) = if h' = h then W2 (ix2 o k) else 0 := by
  unfold weightStack
  have hk := k.isLt
  have hh := h'.isLt
  refine (rows128_right _ _ ⟨64 * h'.val + k.val, by omega⟩ q K (by rw [hK]; show 128 + 64 * h'.val + k.val = 128 + (64 * h'.val + k.val); omega)).trans ?_
  rw [blockDiag_apply _ h' h k o ⟨64 * h'.val + k.val, by omega⟩ q rfl hq]
  exact if_congr Iff.rfl (ValueIdx.transpose_ix2_apply W2 transposes_S64x64_S64x64_1_0 k o) rfl

/-! ## The bias row -/

/-- Lane `64·h + o` of the bias row is `b1 o + b2 o`. -/
theorem biasRow_apply (b1 b2 : FVec Ideal S64 .f32) (h : Fin 2) (o : Fin 64) (q : Fin 128)
    (hq : q.val = 64 * h.val + o.val) :
    biasRow b1 b2 (ix2 0 q) = b1 (ix1 o) + b2 (ix1 o) := by
  unfold biasRow
  refine (ValueIdx.shapeCast_a_1a_apply _ shapeCasts_S128_S1x128 0 q).trans ?_
  show concatenate S128 0 [⟨S64, b1⟩, ⟨S64, b1⟩] concatenates_S64_S64_S128_d0 (ix1 q)
      + concatenate S128 0 [⟨S64, b2⟩, ⟨S64, b2⟩] concatenates_S64_S64_S128_d0 (ix1 q) = _
  rcases fin2_cases h with rfl | rfl
  · rw [twice_left b1 b1 o q (by rw [hq]; show 64 * 0 + o.val = o.val; omega),
      twice_left b2 b2 o q (by rw [hq]; show 64 * 0 + o.val = o.val; omega)]
  · rw [twice_right b1 b1 o q (by rw [hq]; show 64 * 1 + o.val = 64 + o.val; omega),
      twice_right b2 b2 o q (by rw [hq]; show 64 * 1 + o.val = 64 + o.val; omega)]

end Cert.KernelIdeal.Operands

end
-- ==== Proof.KernelRun.lean ====
/-
  The kernel program's result is the layer.

  After the region the program re-reads the packed output [50000, 128] as [100000, 64]: node `n`, feature `o` sits
  in packed row `n / 2` at lane `64·(n mod 2) + o` (both are position `64·n + o` of the row-major order). The packed
  output is `packedOut` of the four arrays the region found, those are the packed aggregate, the packed features,
  the stacked block-diagonal weight table and the doubled bias row, and by the law of `GcnLayer.packedEntry_eq` the
  entry in row `p`, lane `64·h + o` is the layer's entry at node `2p + h`, feature `o`. With `p = n / 2` and
  `h = n mod 2` that node is `n`.
-/
import proofs.«123226_j30262339568119_2_alg».proof.Proof.Gen.KernelIdeal.Frame
import proofs.«123226_j30262339568119_2_alg».proof.Proof.PackedArray
import proofs.«123226_j30262339568119_2_alg».proof.Proof.RegionEntry
import proofs.«123226_j30262339568119_2_alg».proof.Proof.OperandReads
import proofs.«123226_j30262339568119_2_alg».proof.Proof.LayerSpec
import Idealize.ShloMosaic.Lib.StableHlo.Run

noncomputable section

namespace Cert.KernelIdeal.Run

open Cert.KernelIdeal Cert.KernelIdeal.Gen Cert.KernelIdeal.Operands Cert.KernelIdeal.Packed Cert.KernelIdeal.Entry
  Idealize.ShloMosaic Idealize.ShloMosaic.TcCoe Idealize.SL.Sem Idealize.ShloMosaic.StableHlo
  Idealize.ShloMosaic.ValueIdx GcnLayer

/-- The packed output of the packed operands is the layer, two nodes per row: row `p`, lane `64·h + o` is node
    `2p + h`, feature `o`. -/
theorem packedOut_layer (x agg : FVec Ideal S100000x64 .f32) (W1 : FVec Ideal S64x64 .f32) (b1 : FVec Ideal S64 .f32)
    (W2 : FVec Ideal S64x64 .f32) (b2 : FVec Ideal S64 .f32) (p : Fin 50000) (h : Fin 2) (o : Fin 64) (q : Fin 128)
    (n : Fin 100000) (hq : q.val = 64 * h.val + o.val) (hn : n.val = 2 * p.val + h.val) :
    packedOut (packRows agg) (packRows x) (weightStack W1 W2) (biasRow b1 b2) (ix2 p q)
      = leaky (preAct x agg W1 b1 W2 b2 n o) := by
  have hh := h.isLt
  have ho := o.isLt
  have hp := p.isLt
  have hbq : 64 * h.val + o.val < 128 := by omega
  have hbn : 2 * p.val + h.val < 100000 := by omega
  have eq : q = ⟨64 * h.val + o.val, hbq⟩ := Fin.ext hq
  have en : n = ⟨2 * p.val + h.val, hbn⟩ := Fin.ext hn
  rw [eq, en, packedOut_apply]
  exact packedEntry_eq x agg W1 b1 W2 b2 (fun j => packRows agg (ix2 p j)) (fun j => packRows x (ix2 p j))
    (weightStack W1 W2) (biasRow b1 b2) p h o
    (fun h' k => packRows_apply agg p h' k _ _ rfl rfl)
    (fun h' k => packRows_apply x p h' k _ _ rfl rfl)
    (fun h' k => weightStack_upper W1 W2 h' h k o _ _ rfl rfl)
    (fun h' k => weightStack_lower W1 W2 h' h k o _ _ rfl rfl)
    (biasRow_apply b1 b2 h o _ rfl)

/-- The packed output re-read one node per row is the layer. -/
theorem unpacked_layer (x agg : FVec Ideal S100000x64 .f32) (W1 : FVec Ideal S64x64 .f32) (b1 : FVec Ideal S64 .f32)
    (W2 : FVec Ideal S64x64 .f32) (b2 : FVec Ideal S64 .f32) :
    shapeCast S100000x64 (packedOut (packRows agg) (packRows x) (weightStack W1 W2) (biasRow b1 b2))
        shapeCasts_S50000x128_S100000x64
      = layer x agg W1 b1 W2 b2 := by
  funext i
  obtain ⟨n, o, rfl⟩ : ∃ (n : Fin 100000) (o : Fin 64), i = ix2 n o := ⟨i 0, i 1, eq_ix2 i⟩
  have hn := n.isLt
  have ho := o.isLt
  show _ = leaky (preAct x agg W1 b1 W2 b2 n o)
  refine (shapeCast_apply _ shapeCasts_S50000x128_S100000x64 (ix2 n o)
    (ix2 (⟨n.val / 2, by omega⟩ : Fin 50000) (⟨64 * (n.val % 2) + o.val, by omega⟩ : Fin 128)) (by
      rw [Shape.rowMajor_val_two, Shape.rowMajor_val_two]
      show n.val / 2 * 128 + (64 * (n.val % 2) + o.val) = n.val * 64 + o.val
      omega)).trans ?_
  exact packedOut_layer x agg W1 b1 W2 b2 ⟨n.val / 2, by omega⟩ ⟨n.val % 2, by omega⟩ o _ n rfl (by
    show n.val = 2 * (n.val / 2) + n.val % 2; omega)

variable (m : (ℓ : Loc nD τ sig) → Buf (Elt Ideal) ℓ) (ρ : Dev nD → PrngReg)

/-- What the program's result buffer holds after the lines that follow the region: the layer of the features,
    the aggregated messages, the weights and the biases. -/
theorem tail_result (c : Dev nD) :
    (Pipeline.afterTail₀ cfgs (dats m) 0 (V0 m) [hostOps1] c main_v26 : S100000x64.Idx → EReal)
      = layer (m ((c : Thread nD τ).loc main_arg0))
          (aggregate (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v26) = _
  after_results
  show shapeCast S100000x64
      (Pipeline.withArrays (cfgs 0).spec c (V0 m c) (fun w => (dats m 0 c).arrAt w (cfgs 0).N) (Proc.devRef .tc main_v25))
      shapeCasts_S50000x128_S100000x64 = _
  have hA : Pipeline.withArrays (cfgs 0).spec c (V0 m c) (fun w => (dats m 0 c).arrAt w (cfgs 0).N)
      (Proc.devRef .tc main_v25)
      = packedOut (V m c (Pipeline.arrRef spec0 0)) (V m c (Pipeline.arrRef spec0 1))
          (V m c (Pipeline.arrRef spec0 2)) (V m c (Pipeline.arrRef spec0 3)) :=
    (Pipeline.withArrays_arr spec0 launch0.win.arr_inj c _ _ 4).trans (Packed.final m c)
  rw [hA, win_aggregate, win_features, win_weights, win_bias]
  exact unpacked_layer _ _ _ _ _ _

/-- THE KERNEL PROGRAM'S RUN: every weakly fair execution terminates with the result buffer at the layer and the
    arguments unchanged. -/
theorem run : θ_run defs (onTc (τ := τ) (main (F := Ideal))) ⟨m, fun _ => 0, ρ⟩ fun r => ∀ c : Dev nD,
      r.2.mem ((c.tc : Thread nD τ).loc main_v26)
        = layer (m ((c : Thread nD τ).loc main_arg0))
            (aggregate (m ((c : Thread nD τ).loc main_arg0)) (m ((c : Thread nD τ).loc main_arg1))
              (m ((c : Thread nD τ).loc main_arg2)) (m ((c : Thread nD τ).loc main_arg3)))
            (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v26 (Pipeline.mem_restRefs_of main_v26 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.ReferenceLayer.lean ====
/-
  The reference program computes the layer.

  Read one operation at a time, the reference's result at node `n`, feature `o` is the rectifier of
  `(Σ_c (agg n c + x n c) · W1ᵀ c o + b1 o) + (Σ_c (agg n c · x n c) · W2ᵀ c o + b2 o)`, where `agg` is the
  scatter-add stage (messages summed into their destination rows), left unopened here: the kernel's program
  computes the same array by the same operations. A transposed weight read at `(c, o)` is the weight at `(o, c)`,
  and a bias broadcast along the nodes is read at the feature alone, which is how `GcnLayer.preAct` states them.
-/
import proofs.«123226_j30262339568119_2_alg».proof.Proof.Gen.ReferenceIdeal.Read
import proofs.«123226_j30262339568119_2_alg».proof.Proof.LayerSpec

noncomputable section

namespace Cert.ReferenceIdeal.RefLayer

open Cert.ReferenceIdeal Cert.ReferenceIdeal.Read Idealize.ShloMosaic Idealize.ShloMosaic.ValueIdx GcnLayer

variable (x0 : (⟨S100000x64, .f32⟩ : BufTy).Contents (Elt Ideal))
  (x1 x2 : (⟨S1600000, .i32⟩ : BufTy).Contents (Elt Ideal)) (x3 : (⟨S1600000, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))

/-- The first product with its bias, at node `n`, feature `o`: the sums of aggregate and feature against the
    first weight's row `o`, plus the first bias at `o`. -/
theorem sum_part (n : Fin 100000) (o : Fin 64) :
    val_main_v18 (F := Ideal) x0 x1 x2 x3 x4 x5 (ix2 n o)
      = ∑ c : Fin 64, (val_main_v12 (F := Ideal) x0 x1 x2 x3 (ix2 n c) + x0 (ix2 n c)) * x4 (ix2 o c) + x5 (ix1 o) := by
  have eL : ∀ k : Fin 64, lidx_main_v15 (ix2 n o) k = ix2 n k := fun k => funext fun a => by
    match a with
    | ⟨0, _⟩ => rfl
    | ⟨1, _⟩ => rfl
  have eR : ∀ k : Fin 64, idx_main_v14 (ridx_main_v15 (ix2 n o) k) = ix2 o k := fun k => funext fun a => by
    match a with
    | ⟨0, _⟩ => rfl
    | ⟨1, _⟩ => rfl
  have eB : idx_main_v16 (idx_main_v17 (ix2 n o)) = ix1 o := funext fun a => by
    match a with
    | ⟨0, _⟩ => rfl
  rw [val_main_v18_apply, val_main_v15_apply, val_main_v17_apply, val_main_v16_apply, eB]
  refine congrArg₂ (· + ·) (Finset.sum_congr rfl fun k _ => ?_) rfl
  rw [val_main_v13_apply, val_main_v14_apply, eL, eR]
  generalize val_main_v12 (F := Ideal) x0 x1 x2 x3 = agg
  rfl

/-- The second product with its bias: the products of aggregate and feature against the second weight's row. -/
theorem prod_part (n : Fin 100000) (o : Fin 64) :
    val_main_v24 (F := Ideal) x0 x1 x2 x3 x6 x7 (ix2 n o)
      = ∑ c : Fin 64, (val_main_v12 (F := Ideal) x0 x1 x2 x3 (ix2 n c) * x0 (ix2 n c)) * x6 (ix2 o c) + x7 (ix1 o) := by
  have eL : ∀ k : Fin 64, lidx_main_v21 (ix2 n o) k = ix2 n k := fun k => funext fun a => by
    match a with
    | ⟨0, _⟩ => rfl
    | ⟨1, _⟩ => rfl
  have eR : ∀ k : Fin 64, idx_main_v20 (ridx_main_v21 (ix2 n o) k) = ix2 o k := fun k => funext fun a => by
    match a with
    | ⟨0, _⟩ => rfl
    | ⟨1, _⟩ => rfl
  have eB : idx_main_v22 (idx_main_v23 (ix2 n o)) = ix1 o := funext fun a => by
    match a with
    | ⟨0, _⟩ => rfl
  rw [val_main_v24_apply, val_main_v21_apply, val_main_v23_apply, val_main_v22_apply, eB]
  refine congrArg₂ (· + ·) (Finset.sum_congr rfl fun k _ => ?_) rfl
  rw [val_main_v19_apply, val_main_v20_apply, eL, eR]
  generalize val_main_v12 (F := Ideal) x0 x1 x2 x3 = agg
  rfl

/-- The pre-activation stage is the layer's pre-activation. -/
theorem pre_eq (n : Fin 100000) (o : Fin 64) :
    val_main_v25 (F := Ideal) x0 x1 x2 x3 x4 x5 x6 x7 (ix2 n o)
      = preAct x0 (val_main_v12 (F := Ideal) x0 x1 x2 x3) x4 x5 x6 x7 n o := by
  rw [val_main_v25_apply, sum_part, prod_part]
  generalize val_main_v12 (F := Ideal) x0 x1 x2 x3 = agg
  rfl

/-- The reference's last stage is the layer of the features, of the scatter-add stage's aggregate, and of the
    weights and biases. -/
theorem result_eq :
    val_main_v32 (F := Ideal) x0 x1 x2 x3 x4 x5 x6 x7
      = layer x0 (val_main_v12 (F := Ideal) x0 x1 x2 x3) x4 x5 x6 x7 := by
  funext i
  obtain ⟨n, o, rfl⟩ : ∃ (n : Fin 100000) (o : Fin 64), i = ix2 n o := ⟨i 0, i 1, eq_ix2 i⟩
  show _ = leaky (preAct x0 (val_main_v12 (F := Ideal) x0 x1 x2 x3) x4 x5 x6 x7 n o)
  have h28 : val_main_v28 (F := Ideal) x0 x1 x2 x3 x4 x5 x6 x7 (ix2 n o)
      = val_main_v25 (F := Ideal) x0 x1 x2 x3 x4 x5 x6 x7 (ix2 n o) :=
    (val_main_v28_apply x0 x1 x2 x3 x4 x5 x6 x7 _).trans (val_main_v25_apply x0 x1 x2 x3 x4 x5 x6 x7 _).symm
  have h29 : val_main_v29 (F := Ideal) x0 x1 x2 x3 x4 x5 x6 x7 (ix2 n o)
      = val_main_v25 (F := Ideal) x0 x1 x2 x3 x4 x5 x6 x7 (ix2 n o) :=
    (val_main_v29_apply x0 x1 x2 x3 x4 x5 x6 x7 _).trans (val_main_v25_apply x0 x1 x2 x3 x4 x5 x6 x7 _).symm
  rw [val_main_v32_apply, val_main_v27_apply, val_main_v31_apply, h28, h29, pre_eq, val_main_v26_apply,
    val_main_v30_apply, val_main_cst_1_apply, val_main_cst_2_apply]
  generalize preAct x0 (val_main_v12 (F := Ideal) x0 x1 x2 x3) x4 x5 x6 x7 n o = s
  rfl

end Cert.ReferenceIdeal.RefLayer

end
-- ==== Proof.lean ====
/-
  A graph-convolution layer computed by a packed kernel equals its plain reference on the extended reals.

  Both programs first form the aggregated messages `agg` (each edge's source feature row scaled by the edge's value,
  summed into the destination node's row) by the same host operations. The reference then computes, for node `n`
  and output feature `o`,

      leaky ((Σ_c (agg n c + x n c) · W1 o c + b1 o) + (Σ_c (agg n c · x n c) · W2 o c + b2 o)).

  The kernel's program packs two consecutive node rows into one 128-lane row, lays each packed row's sums and
  products side by side (256 lanes), multiplies by a 256 × 128 table holding `W1ᵀ` and `W2ᵀ` block-diagonally, adds
  the row `(b1 + b2, b1 + b2)`, applies the same rectifier, and unpacks. Column `64·h + o` of the table meets node
  `2p + h`'s 64 sums with `W1 o ·`, its 64 products with `W2 o ·`, and the other node's 128 lanes with zeros; on the
  extended reals `y · 0 = 0` for every `y` and addition is associative and commutative, so the two results agree
  entry by entry with no assumption on the inputs (`GcnLayer.packedEntry_eq`). Changes of float format inside the
  kernel are the identity on the extended reals, and a product into a zero accumulator is the plain sum.

  The pieces: the layer and the law (LayerSpec); the reference's stages read at an index (ReferenceLayer); the
  kernel body's stored value at an index (BodyEntry); the four operand arrays the region finds (OperandDefs,
  RegionEntry) read at an index (OperandReads); the ten blocks assembled into the packed output array
  (PackedArray); the unpacking and the kernel program's run (KernelRun). Here they are joined: the two runs end
  with the same array `layer x agg W1 b1 W2 b2`.
-/
import proofs.«123226_j30262339568119_2_alg».proof.Defs
import proofs.«123226_j30262339568119_2_alg».proof.Proof.Gen.Kernel
import proofs.«123226_j30262339568119_2_alg».proof.Proof.Gen.Kernel.Frame
import proofs.«123226_j30262339568119_2_alg».proof.Proof.Gen.KernelIdeal
import proofs.«123226_j30262339568119_2_alg».proof.Proof.Gen.KernelIdeal.Frame
import proofs.«123226_j30262339568119_2_alg».proof.Proof.Gen.ReferenceIdeal
import proofs.«123226_j30262339568119_2_alg».proof.Proof.Gen.Pre_finite_inputs
import proofs.«123226_j30262339568119_2_alg».proof.Proof.Gen.ReferenceIdeal.Run
import proofs.«123226_j30262339568119_2_alg».proof.Proof.Gen.ReferenceIdeal.Read
import proofs.«123226_j30262339568119_2_alg».proof.Proof.KernelRun
import proofs.«123226_j30262339568119_2_alg».proof.Proof.ReferenceLayer
import Idealize.ShloMosaic.Adequacy
import Idealize.ShloMosaic.Init

noncomputable section

namespace Cert.Proof

open Idealize.ShloMosaic Idealize.SL.Sem GcnLayer

/-- The two programs form the aggregated messages by the same operations on the same arguments: the reference's
    scatter-add stage is the kernel program's aggregate. -/
theorem aggregate_eq (x0 : FVec Ideal Cert.KernelIdeal.S100000x64 .f32) (x1 x2 : IVec Cert.KernelIdeal.S1600000 32)
    (x3 : FVec Ideal Cert.KernelIdeal.S1600000 .f32) :
    Cert.ReferenceIdeal.Read.val_main_v12 (F := Ideal) x0 x1 x2 x3 = Cert.KernelIdeal.Operands.aggregate x0 x1 x2 x3 := by
  unfold Cert.ReferenceIdeal.Read.val_main_v12 Cert.ReferenceIdeal.Read.val_main_v11 Cert.ReferenceIdeal.Read.val_main_v10
    Cert.ReferenceIdeal.Read.val_main_cst Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_c_0
    Cert.ReferenceIdeal.Read.val_main_v2 Cert.ReferenceIdeal.Read.val_main_v1 Cert.ReferenceIdeal.Read.val_main_c
    Cert.ReferenceIdeal.Read.val_main_v0 Cert.KernelIdeal.Operands.aggregate
  rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories agreeing on the arguments both programs end with the layer of the features, the aggregated
    messages, the weights and the biases: the kernel's program by its run read through the packed array, the
    reference by its run read one operation at a time. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefLayer.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2, aggregate_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
